-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 71
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S128x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S128x128, .f32⟩
  | .hbm, ⟨68, _⟩ => ⟨S128x128, .f32⟩
  | .hbm, ⟨69, _⟩ => ⟨S1x128, .f32⟩
  | .hbm, ⟨70, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S128x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Stages.lean ====
/-
  A two-layer neighbourhood-mean graph convolution, stage by stage, as functions of the arrays each stage reads.

  The graph has 100000 nodes with 128 features each and 1600000 directed edges, given as a 2 x 1600000 integer array:
  row 0 holds each edge's source node, row 1 its destination. A negative source is wrapped once by the node count
  before it is used as a row number. The in-degree of a node is the number of edges that name it as destination, and
  the neighbourhood mean of a feature array is, row by row, the sum of the source rows of the edges arriving at that
  node, times the reciprocal of the in-degree (times zero at a node no edge reaches).

  One layer is   mean(H) * Wl^T + b + H * Wr^T   over the rows; the encoder is two layers with max(., 0) between them.

  Nothing here is evaluated: the row gather, the scatter-add and the reciprocal stay closed. What the two programs of this
  certificate have to agree on is only how one layer is computed from its five operand arrays.
-/
import proofs.«169882_j26474178412606_1_alg».proof.Proof.Gen.ReferenceIdeal

noncomputable section

namespace Cert.Sage

open Cert.ReferenceIdeal Cert.ReferenceIdeal.Gen Idealize.ShloMosaic Idealize.ShloMosaic.TcCoe

variable {F : FTy → Type} [FloatOps F]

/-- The edge list: 2 x 1600000 node numbers. -/
abbrev Edges (F : FTy → Type) := (⟨S2x1600000, .i32⟩ : BufTy).Contents (Elt F)
/-- One number per edge. -/
abbrev PerEdge (F : FTy → Type) := (⟨S1600000, .i32⟩ : BufTy).Contents (Elt F)
/-- One float per node. -/
abbrev PerNode (F : FTy → Type) := (⟨S100000, .f32⟩ : BufTy).Contents (Elt F)
/-- 128 features per node. -/
abbrev Feat (F : FTy → Type) := (⟨S100000x128, .f32⟩ : BufTy).Contents (Elt F)
/-- A 128 x 128 weight matrix, stored output feature by input feature. -/
abbrev Weight (F : FTy → Type) := (⟨S128x128, .f32⟩ : BufTy).Contents (Elt F)
/-- A bias, one number per output feature. -/
abbrev Bias (F : FTy → Type) := (⟨S128, .f32⟩ : BufTy).Contents (Elt F)

/-- Row 0 of the edge list: each edge's source node. -/
def srcRow (ei : Edges F) : PerEdge F :=
  shapeCast _ (extractStridedSlice S1x1600000 ![0, 0] ei slices_S2x1600000_S1x1600000_0_0) shapeCasts_S1x1600000_S1600000

/-- Row 1 of the edge list: each edge's destination node. -/
def dstRow (ei : Edges F) : PerEdge F :=
  shapeCast _ (extractStridedSlice S1x1600000 ![1, 0] ei slices_S2x1600000_S1x1600000_1_0) shapeCasts_S1x1600000_S1600000

/-- A node number with a negative one wrapped once by the node count. -/
def wrapNegative (s : PerEdge F) : PerEdge F :=
  select (cmpi .slt s (broadcastInDim S1600000 ![] bcast_S_S1600000 (constantI S_ 32 0#32)))
    (addi s (broadcastInDim S1600000 ![] bcast_S_S1600000 (constantI S_ 32 100000#32)))
    s

/-- The in-degree of every node: a one added at each edge's destination. -/
def degree (ei : Edges F) : PerNode F :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 (dstRow ei))
    (broadcastInDim S1600000 ![] bcast_S_S1600000 (constant (F := F) S_ .f32 0x3F800000#32))

/-- Where an edge arrives: the in-degree is positive. -/
def degPositive (ei : Edges F) : (⟨S100000, .i1⟩ : BufTy).Contents (Elt F) :=
  cmpf (F := F) .ogt (degree ei) (broadcastInDim S100000 ![] bcast_S_S100000 (constant (F := F) S_ .f32 0x00000000#32))

/-- One over the in-degree, the in-degree first raised to at least one. -/
def recipDegree (ei : Edges F) : PerNode F :=
  Host.divf (broadcastInDim S100000 ![] bcast_S_S100000 (constant (F := F) S_ .f32 0x3F800000#32))
    (maximumf (degree ei) (broadcastInDim S100000 ![] bcast_S_S100000 (constant (F := F) S_ .f32 0x3F800000#32)))

/-- A per-node value where a condition holds and one repeated scalar elsewhere. -/
def whereElseSplat (cnd : (⟨S100000, .i1⟩ : BufTy).Contents (Elt F)) (a : PerNode F)
    (z : (⟨S_, .f32⟩ : BufTy).Contents (Elt F)) : PerNode F :=
  select cnd a (broadcastInDim S100000 ![] bcast_S_S100000 (id z))

/-- One over the in-degree where an edge arrives, zero elsewhere. -/
def invDegree (ei : Edges F) : PerNode F :=
  whereElseSplat (degPositive ei) (recipDegree ei) (constant (F := F) S_ .f32 0x00000000#32)

/-- The source rows of a feature array summed at each edge's destination and scaled per node: the mean's shape over any edge
    rows and any per-node scale. -/
def meanOf (H : Feat F) (src dst : PerEdge F) (scale : PerNode F) : Feat F :=
  mulf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128 H
        (broadcastInDim S1600000x1 ![0] bcast_S1600000_S1600000x1_0 (wrapNegative src))))
    (broadcastInDim S100000x128 ![0, 1] bcast_S100000x1_S100000x128_0_1
      (broadcastInDim S100000x1 ![0] bcast_S100000_S100000x1_0 scale))

/-- The neighbourhood mean of a feature array: the source rows summed at each destination, scaled by the reciprocal in-degree. -/
def neighbourMean (H : Feat F) (ei : Edges F) : Feat F :=
  meanOf H (srcRow ei) (dstRow ei) (invDegree ei)

/-- The stored weight matrix turned over: input feature by output feature. -/
def turned (W : Weight F) : Weight F := transpose S128x128 [1, 0] W transposes_S128x128_S128x128_1_0

/-- A feature array times a turned weight matrix, as one host product. -/
def timesTurned (X : Feat F) (Wt : Weight F) : Feat F :=
  Host.dotGeneral dot_S100000x128_S128x128_S100000x128_1_0_0_1_n_n none X Wt

/-- The bias repeated on every row. -/
def biasRows (b : Bias F) : Feat F :=
  broadcastInDim S100000x128 ![0, 1] bcast_S1x128_S100000x128_0_1 (broadcastInDim S1x128 ![1] bcast_S128_S1x128_1 b)

/-- One layer from its operands: (A * Wl^T + b) + X * Wr^T. -/
def layer (A X : Feat F) (Wl : Weight F) (b : Bias F) (Wr : Weight F) : Feat F :=
  addf (addf (timesTurned A (turned Wl)) (biasRows b)) (timesTurned X (turned Wr))

/-- max(., 0), entry by entry. -/
def relu (Y : Feat F) : Feat F :=
  maximumf Y (broadcastInDim S100000x128 ![] bcast_S_S100000x128 (constant (F := F) S_ .f32 0x00000000#32))

/-- The hidden features: the first layer of the node features and their neighbourhood mean, then max(., 0). -/
def hidden (x : Feat F) (ei : Edges F) (W1l : Weight F) (b1 : Bias F) (W1r : Weight F) : Feat F :=
  relu (layer (neighbourMean x ei) x W1l b1 W1r)

/-- The encoder: the second layer of the hidden features and their neighbourhood mean. -/
def encoder (x : Feat F) (ei : Edges F) (W1l : Weight F) (b1 : Bias F) (W1r : Weight F) (W2l : Weight F) (b2 : Bias F)
    (W2r : Weight F) : Feat F :=
  layer (neighbourMean (hidden x ei W1l b1 W1r) ei) (hidden x ei W1l b1 W1r) W2l b2 W2r

end Cert.Sage

end
-- ==== Proof.RefRun.lean ====
/-
  The reference program's run, read back: every weakly fair execution of its host operations terminates with the result
  array holding the encoder of the argument arrays (Stages: two layers over the neighbourhood mean, max(., 0) between),
  and with the arguments unchanged.

  The program is a straight line of host operations; the two functions it calls (the select behind the reciprocal in-degree
  and max(., 0)) stand at their call sites as their own operations. Running the list names each buffer's final contents as
  the operations' composition over the launch contents, and that composition is the encoder, stage for stage.
-/
import proofs.«169882_j26474178412606_1_alg».proof.Proof.Stages
import Idealize.ShloMosaic.Lib.StableHlo.Run

noncomputable section

namespace Cert.Sage.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 74 host operations, in program order; a called function's operations stand in its call's place. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    nullary main_cst_3 (constant S_ .f32 0x3F800000#32),
    unary main_cst_3 main_v12 (broadcastInDim S100000 ![] bcast_S_S100000 : (⟨S_, .f32⟩ : BufTy).Contents (Elt F) → (⟨S100000, .f32⟩ : BufTy).Contents (Elt F)),
    binary main_v12 main_v11 main_v13 (Host.divf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_arg0 main_v20 main_v21 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v22 (broadcastInDim S100000x128 ![] bcast_S_S100000x128 : (⟨S_, .f32⟩ : BufTy).Contents (Elt F) → (⟨S100000x128, .f32⟩ : BufTy).Contents (Elt F)),
    unary main_v3 main_v23 (broadcastInDim S1600000x1 ![0] bcast_S1600000_S1600000x1_0 : (⟨S1600000, .i32⟩ : BufTy).Contents (Elt F) → (⟨S1600000x1, .i32⟩ : BufTy).Contents (Elt F)),
    ternary main_v22 main_v23 main_v21 main_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v14 main_v25 (broadcastInDim S100000x1 ![0] bcast_S100000_S100000x1_0 : (⟨S100000, .f32⟩ : BufTy).Contents (Elt F) → (⟨S100000x1, .f32⟩ : BufTy).Contents (Elt F)),
    unary main_v25 main_v26 (broadcastInDim S100000x128 ![0, 1] bcast_S100000x1_S100000x128_0_1 : (⟨S100000x1, .f32⟩ : BufTy).Contents (Elt F) → (⟨S100000x128, .f32⟩ : BufTy).Contents (Elt F)),
    binary main_v24 main_v26 main_v27 (mulf : (⟨S100000x128, .f32⟩ : BufTy).Contents (Elt F) → (⟨S100000x128, .f32⟩ : BufTy).Contents (Elt F) → (⟨S100000x128, .f32⟩ : BufTy).Contents (Elt F)),
    unary main_arg2 main_v28 ((transpose S128x128 [1, 0] · transposes_S128x128_S128x128_1_0) : (⟨S128x128, .f32⟩ : BufTy).Contents (Elt F) → (⟨S128x128, .f32⟩ : BufTy).Contents (Elt F)),
    binary main_v27 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    unary main_arg4 main_v33 ((transpose S128x128 [1, 0] · transposes_S128x128_S128x128_1_0) : (⟨S128x128, .f32⟩ : BufTy).Contents (Elt F) → (⟨S128x128, .f32⟩ : BufTy).Contents (Elt F)),
    binary main_arg0 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v32 main_v34 main_v35 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v35) (TRef.of (T := ⟨S100000x128, .f32⟩) main_call1_v0) (TRef.of (T := ⟨S100000x128, .f32⟩) main_v36) maximumf,
    nullary main_c_7 (constantI S_ 32 0#32),
    unary main_c_7 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_v36 main_v42 main_v43 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v44 (broadcastInDim S100000x128 ![] bcast_S_S100000x128 : (⟨S_, .f32⟩ : BufTy).Contents (Elt F) → (⟨S100000x128, .f32⟩ : BufTy).Contents (Elt F)),
    unary main_v3 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v14 main_v47 (broadcastInDim S100000x1 ![0] bcast_S100000_S100000x1_0 : (⟨S100000, .f32⟩ : BufTy).Contents (Elt F) → (⟨S100000x1, .f32⟩ : BufTy).Contents (Elt F)),
    unary main_v47 main_v48 (broadcastInDim S100000x128 ![0, 1] bcast_S100000x1_S100000x128_0_1 : (⟨S100000x1, .f32⟩ : BufTy).Contents (Elt F) → (⟨S100000x128, .f32⟩ : BufTy).Contents (Elt F)),
    binary main_v46 main_v48 main_v49 (mulf : (⟨S100000x128, .f32⟩ : BufTy).Contents (Elt F) → (⟨S100000x128, .f32⟩ : BufTy).Contents (Elt F) → (⟨S100000x128, .f32⟩ : BufTy).Contents (Elt F)),
    unary main_arg5 main_v50 ((transpose S128x128 [1, 0] · transposes_S128x128_S128x128_1_0) : (⟨S128x128, .f32⟩ : BufTy).Contents (Elt F) → (⟨S128x128, .f32⟩ : BufTy).Contents (Elt F)),
    binary main_v49 main_v50 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v51 main_v53 main_v54 (addf : (⟨S100000x128, .f32⟩ : BufTy).Contents (Elt F) → (⟨S100000x128, .f32⟩ : BufTy).Contents (Elt F) → (⟨S100000x128, .f32⟩ : BufTy).Contents (Elt F)),
    unary main_arg7 main_v55 ((transpose S128x128 [1, 0] · transposes_S128x128_S128x128_1_0) : (⟨S128x128, .f32⟩ : BufTy).Contents (Elt F) → (⟨S128x128, .f32⟩ : BufTy).Contents (Elt F)),
    binary main_v36 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

set_option maxRecDepth 8192 in
set_option maxHeartbeats 29600000 in
/-- From any memory with zero counters every weakly fair execution of the reference terminates, its result the encoder of
    the argument arrays and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) =
        Cert.Sage.encoder (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v57).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.Sage.RefRun

end
-- ==== Proof.KRun.lean ====
/-
  The idealized kernel program's run with its result array named.

  The program is six segments in a row: three stretches of host operations, the first layer's launch over twenty row blocks,
  one more stretch of host operations, the second layer's launch. The contents of every buffer at each boundary are a fold
  from the launch memory: a host stretch applies its operations, a launch replaces its output array by what its twenty
  write-backs leave and keeps everything else. Every weakly fair execution terminates, and in the final memory every buffer
  holds the last boundary's contents. Read at the result buffer that is the second launch's output array after its last
  write-back; read at an argument it is the launch contents, since nothing writes an argument.
-/
import proofs.«169882_j26474178412606_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.Sage.KRun

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.KPay.lean ====
/-
  What one grid point's body computes, entry by entry, at the ideal values.

  The body loads a 5000 x 128 block A of aggregated features, the matching block X of node features, two 128 x 128
  matrices P and Q (the weights, already turned over: input feature by output feature) and one row of biases, and stores

      (A * P + bias) + X * Q            (second layer)         max((A * P + bias) + X * Q, 0)    (first layer).

  The narrowing of the operands to bf16 before the two products changes nothing at the ideal values, and a product
  accumulated into zeros is the plain sum over the 128 input features. So entry (p, q) of the stored block is
      sum_k A(p, k) * P(k, q)  +  bias(0, q)  +  sum_k X(p, k) * Q(k, q),
  capped below by zero in the first layer.
-/
import proofs.«169882_j26474178412606_1_alg».proof.Proof.Gen.KernelIdeal.Skeleton
import proofs.«169882_j26474178412606_1_alg».proof.Proof.LibPlainProduct
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx

/-- Row `r` of an M x 128 array against column `c` of a 128 x 128 matrix. -/
def rowDot {M : Nat} (A : (⟨2, ![M, 128]⟩ : Shape).Idx → EReal) (W : (⟨2, ![128, 128]⟩ : Shape).Idx → EReal)
    (r : Fin M) (c : Fin 128) : EReal :=
  ∑ k : Fin 128, A (ix2 r k) * W (ix2 k c)

/-- One entry of a layer before the cap: the aggregated row against P, plus the bias, plus the node's own row against Q. -/
def layerAt {M : Nat} (A X : (⟨2, ![M, 128]⟩ : Shape).Idx → EReal) (P Q : (⟨2, ![128, 128]⟩ : Shape).Idx → EReal)
    (bias : (⟨2, ![1, 128]⟩ : Shape).Idx → EReal) (r : Fin M) (c : Fin 128) : EReal :=
  rowDot A P r c + bias (ix2 (0 : Fin 1) c) + rowDot X Q r c

namespace Body

open Cert.KernelIdeal Cert.KernelIdeal.Gen

/-- The first layer's stored block as whole-vector operations: the bf16 narrowings and the identity reshapes dropped. -/
theorem pay0_eq (x0 x1 : FVec Ideal S5000x128 .f32) (x2 x3 : FVec Ideal S128x128 .f32) (x4 : FVec Ideal S1x128 .f32) :
    k0_pay1 (F := Ideal) x0 x1 x2 x3 x4
      = maximumf
          (addf
            (addf (matmul dot_S5000x128_S128x128_S5000x128_1_0_0_1_n_n none x0 x2 (constant (F := Ideal) S5000x128 .f32 0x00000000#32))
              (broadcastTo S5000x128 x4 broadcasts_S1x128_S5000x128))
            (matmul dot_S5000x128_S128x128_S5000x128_1_0_0_1_n_n none x1 x3 (constant (F := Ideal) S5000x128 .f32 0x00000000#32)))
          (broadcast S5000x128 (Scalar.ofBits (F := Ideal) .f32 0x00000000#32)) := by
  unfold k0_pay1
  simp only [shapeCast_self]
  rfl

/-- The second layer's stored block as whole-vector operations. -/
theorem pay1_eq (x0 x1 : FVec Ideal S5000x128 .f32) (x2 x3 : FVec Ideal S128x128 .f32) (x4 : FVec Ideal S1x128 .f32) :
    k1_pay1 (F := Ideal) x0 x1 x2 x3 x4
      = addf
          (addf (matmul dot_S5000x128_S128x128_S5000x128_1_0_0_1_n_n none x0 x2 (constant (F := Ideal) S5000x128 .f32 0x00000000#32))
            (broadcastTo S5000x128 x4 broadcasts_S1x128_S5000x128))
          (matmul dot_S5000x128_S128x128_S5000x128_1_0_0_1_n_n none x1 x3 (constant (F := Ideal) S5000x128 .f32 0x00000000#32)) := by
  unfold k1_pay1
  simp only [shapeCast_self]
  rfl

/-- The sum of the three terms of a block entry. -/
theorem three_terms_apply (x0 x1 : FVec Ideal S5000x128 .f32) (x2 x3 : FVec Ideal S128x128 .f32) (x4 : FVec Ideal S1x128 .f32)
    (p : Fin 5000) (q : Fin 128) :
    (addf
        (addf (matmul dot_S5000x128_S128x128_S5000x128_1_0_0_1_n_n none x0 x2 (constant (F := Ideal) S5000x128 .f32 0x00000000#32))
          (broadcastTo S5000x128 x4 broadcasts_S1x128_S5000x128))
        (matmul dot_S5000x128_S128x128_S5000x128_1_0_0_1_n_n none x1 x3 (constant (F := Ideal) S5000x128 .f32 0x00000000#32)))
      (ix2 p q) = layerAt x0 x1 x2 x3 x4 p q := by
  have hL := PlainProduct.matmul_zero_apply (M := 5000) (K := 128) (P := 128)
    dot_S5000x128_S128x128_S5000x128_1_0_0_1_n_n_wf none x0 x2 p q
  have hR := PlainProduct.matmul_zero_apply (M := 5000) (K := 128) (P := 128)
    dot_S5000x128_S128x128_S5000x128_1_0_0_1_n_n_wf none x1 x3 p q
  have hB := broadcastTo_1b_ab_apply (a := 5000) (b := 128) x4 broadcasts_S1x128_S5000x128 p q
  show (_ + _) + _ = _
  unfold layerAt rowDot
  exact congrArg₂ (· + ·) (congrArg₂ (· + ·) hL hB) hR

/-- Entry (p, q) of the first layer's stored block. -/
theorem pay0_apply (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q) = max (layerAt x0 x1 x2 x3 x4 p q) (Ideal.ofBits .f32 0x00000000#32) := by
  rw [pay0_eq]
  exact congrArg (max · (Ideal.ofBits .f32 0x00000000#32)) (three_terms_apply x0 x1 x2 x3 x4 p q)

/-- Entry (p, q) of the second layer's stored block. -/
theorem pay1_apply (x0 x1 : FVec Ideal S5000x128 .f32) (x2 x3 : FVec Ideal S128x128 .f32) (x4 : FVec Ideal S1x128 .f32)
    (p : Fin 5000) (q : Fin 128) :
    k1_pay1 (F := Ideal) x0 x1 x2 x3 x4 (ix2 p q) = layerAt x0 x1 x2 x3 x4 p q := by
  rw [pay1_eq]
  exact three_terms_apply x0 x1 x2 x3 x4 p q

end Body

end Cert.Sage

end
-- ==== Proof.KBlocks0.lean ====
/-
  The first launch's output array after its twenty write-backs, as one function of the arrays the launch reads.

  Grid point t stages rows 5000 t .. 5000 t + 4999 of the aggregated features and of the node features, the two whole
  128 x 128 matrices and the one row of biases, and writes back rows 5000 t .. 5000 t + 4999 of the output. So entry (p, q)
  of what point t writes back is the layer's entry (5000 t + p, q) of the whole arrays: the rows line up block for block,
  the matrices and the bias are the same at every point. The twenty blocks tile the 100000 rows (row r lies in block
  r / 5000), so after the last write-back the whole array is the layer, entry by entry, capped below by zero.
-/
import proofs.«169882_j26474178412606_1_alg».proof.Proof.Gen.KernelIdeal.Frame
import proofs.«169882_j26474178412606_1_alg».proof.Proof.KPay
import Idealize.ShloMosaic.Lib.Pipeline.Value

set_option maxRecDepth 16384

noncomputable section

namespace Cert.Sage.Blocks0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The layer over the whole arrays the launch reads, entry by entry. -/
def whole (c : Dev nD) : S100000x128.Idx → Elt Ideal .f32 := fun i =>
  max (layerAt (M := 100000) (V c main_v27) (V c main_arg0) (V c main_v28) (V c main_v29) (V c main_v30) (i 0) (i 1)) (Ideal.ofBits .f32 0x00000000#32)

/-- The printed index maps over the twenty points: the two row-blocked inputs move with the output, whose row block is the
    point's number; every other block index is zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := by have h := t.isLt; have e : cfg0.N = 20 := N_0; omega

/-- Row p of block t is row 5000 t + p of the array. -/
def rowOf (t : Fin cfg0.N) (p : Fin 5000) : Fin 100000 := ⟨t.val * 5000 + p.val, by have := point_lt t; have := p.isLt; omega⟩

/-- The aggregated block at point t, read at (p, k). -/
theorem blkA (c : Dev nD) (t : Fin cfg0.N) (p : Fin 5000) (k : Fin 128) :
    iblk0 V c 0 t (ix2 p k) = V c main_v27 (ix2 (rowOf t p) k) := by
  obtain ⟨e00, e01, -⟩ := index_facts t
  show V c main_v27 (((cfg0.win 0).blk t).view.emb (ix2 p k)) = V c main_v27 (ix2 (rowOf t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The node-feature block at point t, read at (p, k). -/
theorem blkX (c : Dev nD) (t : Fin cfg0.N) (p : Fin 5000) (k : Fin 128) :
    iblk0 V c 1 t (ix2 p k) = V c main_arg0 (ix2 (rowOf t p) k) := by
  obtain ⟨-, -, e10, e11, -⟩ := index_facts t
  show V c main_arg0 (((cfg0.win 1).blk t).view.emb (ix2 p k)) = V c main_arg0 (ix2 (rowOf t p) k)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The first matrix is staged whole at every point. -/
theorem blkP (c : Dev nD) (t : Fin cfg0.N) (k q : Fin 128) :
    iblk0 V c 2 t (ix2 k q) = V c main_v28 (ix2 k q) := by
  obtain ⟨-, -, -, -, e20, e21, -⟩ := index_facts t
  show V c main_v28 (((cfg0.win 2).blk t).view.emb (ix2 k q)) = V c main_v28 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The second matrix is staged whole at every point. -/
theorem blkQ (c : Dev nD) (t : Fin cfg0.N) (k q : Fin 128) :
    iblk0 V c 3 t (ix2 k q) = V c main_v29 (ix2 k q) := by
  obtain ⟨-, -, -, -, -, -, e30, e31, -⟩ := index_facts t
  show V c main_v29 (((cfg0.win 3).blk t).view.emb (ix2 k q)) = V c main_v29 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row is staged whole at every point. -/
theorem blkB (c : Dev nD) (t : Fin cfg0.N) (q : Fin 128) :
    iblk0 V c 4 t (ix2 (0 : Fin 1) q) = V c main_v30 (ix2 (0 : Fin 1) q) := by
  obtain ⟨-, -, -, -, -, -, -, -, e40, e41, -⟩ := index_facts t
  show V c main_v30 (((cfg0.win 4).blk t).view.emb (ix2 (0 : Fin 1) q)) = V c main_v30 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry (p, q) of the output block at point t is entry (5000 t + p, q) of the array. -/
theorem embO (t : Fin cfg0.N) (p : Fin 5000) (q : Fin 128) :
    ((cfg0.win 5).blk t).view.emb (ix2 p q) = ix2 (rowOf t p) q := by
  obtain ⟨-, -, -, -, -, -, -, -, -, -, e50, e51⟩ := index_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- The layer's entry over the blocks at point t is its entry over the whole arrays, 5000 t rows down. -/
theorem layerAt_blocks (c : Dev nD) (t : Fin cfg0.N) (p : Fin 5000) (q : Fin 128) :
    layerAt (M := 5000) (iblk0 V c 0 t) (iblk0 V c 1 t) (iblk0 V c 2 t) (iblk0 V c 3 t) (iblk0 V c 4 t) p q
      = layerAt (M := 100000) (V c main_v27) (V c main_arg0) (V c main_v28) (V c main_v29) (V c main_v30) (rowOf t p) q := by
  unfold layerAt rowDot
  refine congrArg₂ (· + ·) (congrArg₂ (· + ·) (Finset.sum_congr rfl fun k _ => ?_) (blkB V c t q)) (Finset.sum_congr rfl fun k _ => ?_)
  · exact congrArg₂ (· * ·) (blkA V c t p k) (blkP V c t k q)
  · exact congrArg₂ (· * ·) (blkX V c t p k) (blkQ V c t k q)

/-- What point t writes back is block t of the layer over the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero zeros]
  simp only [View.ld_unit_zero (S := S5000x128) zeros, View.ld_unit_zero (S := S128x128) zeros, View.ld_unit_zero (S := S1x128) zeros]
  funext j
  obtain ⟨p, q, rfl⟩ : ∃ (p : Fin 5000) (q : Fin 128), j = ix2 p q := ⟨j 0, j 1, eq_ix2 j⟩
  refine (Body.pay0_apply (iblk0 V c 0 t) (iblk0 V c 1 t) (iblk0 V c 2 t) (iblk0 V c 3 t) (iblk0 V c 4 t) p q).trans ?_
  show _ = whole V c (((cfg0.win 5).blk t).view.emb (ix2 p q))
  rw [embO t p q]
  unfold whole
  exact congrArg (max · (Ideal.ofBits .f32 0x00000000#32)) (layerAt_blocks V c t p q)

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- Every row lies in the block of the point numbered by the row's quotient by 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, -, -, -, -, e50, e51⟩ := index_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the last write-back the output array is the layer over the whole arrays the launch read. -/
theorem final (c : Dev nD) : (dat0 V c).arrAt 5 cfg0.N = whole V c :=
  (dat0 V c).arrAt_eq_of_cover 5 (whole V c) (fun t _ => flushed_eq V c t) cover

end Cert.Sage.Blocks0

end
-- ==== Proof.KBlocks1.lean ====
/-
  The second launch's output array after its twenty write-backs, as one function of the arrays the launch reads.

  Grid point t stages rows 5000 t .. 5000 t + 4999 of the aggregated features and of the node features, the two whole
  128 x 128 matrices and the one row of biases, and writes back rows 5000 t .. 5000 t + 4999 of the output. So entry (p, q)
  of what point t writes back is the layer's entry (5000 t + p, q) of the whole arrays: the rows line up block for block,
  the matrices and the bias are the same at every point. The twenty blocks tile the 100000 rows (row r lies in block
  r / 5000), so after the last write-back the whole array is the layer, entry by entry.
-/
import proofs.«169882_j26474178412606_1_alg».proof.Proof.Gen.KernelIdeal.Frame
import proofs.«169882_j26474178412606_1_alg».proof.Proof.KPay
import Idealize.ShloMosaic.Lib.Pipeline.Value

set_option maxRecDepth 16384

noncomputable section

namespace Cert.Sage.Blocks1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The layer over the whole arrays the launch reads, entry by entry. -/
def whole (c : Dev nD) : S100000x128.Idx → Elt Ideal .f32 := fun i =>
  layerAt (M := 100000) (V c main_v44) (V c main_v31) (V c main_v45) (V c main_v46) (V c main_v47) (i 0) (i 1)

/-- The printed index maps over the twenty points: the two row-blocked inputs move with the output, whose row block is the
    point's number; every other block index is zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := by have h := t.isLt; have e : cfg1.N = 20 := N_1; omega

/-- Row p of block t is row 5000 t + p of the array. -/
def rowOf (t : Fin cfg1.N) (p : Fin 5000) : Fin 100000 := ⟨t.val * 5000 + p.val, by have := point_lt t; have := p.isLt; omega⟩

/-- The aggregated block at point t, read at (p, k). -/
theorem blkA (c : Dev nD) (t : Fin cfg1.N) (p : Fin 5000) (k : Fin 128) :
    iblk1 V c 0 t (ix2 p k) = V c main_v44 (ix2 (rowOf t p) k) := by
  obtain ⟨e00, e01, -⟩ := index_facts t
  show V c main_v44 (((cfg1.win 0).blk t).view.emb (ix2 p k)) = V c main_v44 (ix2 (rowOf t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The node-feature block at point t, read at (p, k). -/
theorem blkX (c : Dev nD) (t : Fin cfg1.N) (p : Fin 5000) (k : Fin 128) :
    iblk1 V c 1 t (ix2 p k) = V c main_v31 (ix2 (rowOf t p) k) := by
  obtain ⟨-, -, e10, e11, -⟩ := index_facts t
  show V c main_v31 (((cfg1.win 1).blk t).view.emb (ix2 p k)) = V c main_v31 (ix2 (rowOf t p) k)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first matrix is staged whole at every point. -/
theorem blkP (c : Dev nD) (t : Fin cfg1.N) (k q : Fin 128) :
    iblk1 V c 2 t (ix2 k q) = V c main_v45 (ix2 k q) := by
  obtain ⟨-, -, -, -, e20, e21, -⟩ := index_facts t
  show V c main_v45 (((cfg1.win 2).blk t).view.emb (ix2 k q)) = V c main_v45 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The second matrix is staged whole at every point. -/
theorem blkQ (c : Dev nD) (t : Fin cfg1.N) (k q : Fin 128) :
    iblk1 V c 3 t (ix2 k q) = V c main_v46 (ix2 k q) := by
  obtain ⟨-, -, -, -, -, -, e30, e31, -⟩ := index_facts t
  show V c main_v46 (((cfg1.win 3).blk t).view.emb (ix2 k q)) = V c main_v46 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row is staged whole at every point. -/
theorem blkB (c : Dev nD) (t : Fin cfg1.N) (q : Fin 128) :
    iblk1 V c 4 t (ix2 (0 : Fin 1) q) = V c main_v47 (ix2 (0 : Fin 1) q) := by
  obtain ⟨-, -, -, -, -, -, -, -, e40, e41, -⟩ := index_facts t
  show V c main_v47 (((cfg1.win 4).blk t).view.emb (ix2 (0 : Fin 1) q)) = V c main_v47 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Entry (p, q) of the output block at point t is entry (5000 t + p, q) of the array. -/
theorem embO (t : Fin cfg1.N) (p : Fin 5000) (q : Fin 128) :
    ((cfg1.win 5).blk t).view.emb (ix2 p q) = ix2 (rowOf t p) q := by
  obtain ⟨-, -, -, -, -, -, -, -, -, -, e50, e51⟩ := index_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- The layer's entry over the blocks at point t is its entry over the whole arrays, 5000 t rows down. -/
theorem layerAt_blocks (c : Dev nD) (t : Fin cfg1.N) (p : Fin 5000) (q : Fin 128) :
    layerAt (M := 5000) (iblk1 V c 0 t) (iblk1 V c 1 t) (iblk1 V c 2 t) (iblk1 V c 3 t) (iblk1 V c 4 t) p q
      = layerAt (M := 100000) (V c main_v44) (V c main_v31) (V c main_v45) (V c main_v46) (V c main_v47) (rowOf t p) q := by
  unfold layerAt rowDot
  refine congrArg₂ (· + ·) (congrArg₂ (· + ·) (Finset.sum_congr rfl fun k _ => ?_) (blkB V c t q)) (Finset.sum_congr rfl fun k _ => ?_)
  · exact congrArg₂ (· * ·) (blkA V c t p k) (blkP V c t k q)
  · exact congrArg₂ (· * ·) (blkX V c t p k) (blkQ V c t k q)

/-- What point t writes back is block t of the layer over the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zeros]
  simp only [View.ld_unit_zero (S := S5000x128) zeros, View.ld_unit_zero (S := S128x128) zeros, View.ld_unit_zero (S := S1x128) zeros]
  funext j
  obtain ⟨p, q, rfl⟩ : ∃ (p : Fin 5000) (q : Fin 128), j = ix2 p q := ⟨j 0, j 1, eq_ix2 j⟩
  refine (Body.pay1_apply (iblk1 V c 0 t) (iblk1 V c 1 t) (iblk1 V c 2 t) (iblk1 V c 3 t) (iblk1 V c 4 t) p q).trans ?_
  show _ = whole V c (((cfg1.win 5).blk t).view.emb (ix2 p q))
  rw [embO t p q]
  unfold whole
  exact (layerAt_blocks V c t p q)

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v48).slice (win1_5.rect t)).set ↔ _
  rw [View.set_slice_whole, Rect.mem_set_unit]
  exact Iff.rfl

/-- Every row lies in the block of the point numbered by the row's quotient by 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨-, -, -, -, -, -, -, -, -, -, e50, e51⟩ := index_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the last write-back the output array is the layer over the whole arrays the launch read. -/
theorem final (c : Dev nD) : (dat1 V c).arrAt 5 cfg1.N = whole V c :=
  (dat1 V c).arrAt_eq_of_cover 5 (whole V c) (fun t _ => flushed_eq V c t) cover

end Cert.Sage.Blocks1

end
-- ==== Proof.KHost.lean ====
/-
  What the kernel program's host stretches leave in the buffers the two launches read, at the ideal values.

  Before the first launch the host computes, in three stretches, the edge rows and the in-degree tests; the select behind
  the reciprocal in-degree (a called function); and the neighbourhood mean of the node features, the two turned weight
  matrices and the bias as one row. Between the launches one more stretch does the last of these over the first launch's
  output array in place of the node features. Each stretch is read over whatever contents it starts from: a buffer it
  writes holds the composition of its operations over the buffers it reads, every other buffer is untouched. Chained from
  the launch memory these compositions are, stage for stage, the ones the reference program names: the two programs list
  the same host operations over the same shapes.
-/
import proofs.«169882_j26474178412606_1_alg».proof.Proof.Gen.KernelIdeal.Frame
import proofs.«169882_j26474178412606_1_alg».proof.Proof.Stages
import Idealize.ShloMosaic.Lib.StableHlo.Run
import Idealize.ShloMosaic.PureOps.Ideal

set_option maxRecDepth 16384

noncomputable section

namespace Cert.Sage.KHost

open Cert.KernelIdeal Cert.KernelIdeal.Gen Idealize.ShloMosaic Idealize.ShloMosaic.TcCoe Idealize.SL.Sem Idealize.ShloMosaic.StableHlo

/-! ## Each stretch over the contents it starts from -/

section Stretches

variable (Wv : Valuation τ sig (Elt Ideal))

/-- The called select writes its result from the condition, the value and the scalar it is handed. -/
theorem call_where :
    StableHlo.after hostOps0_1 Wv (Proc.devRef .tc main_v14)
      = Cert.Sage.whereElseSplat (F := Ideal) (Wv (Proc.devRef .tc main_v9)) (Wv (Proc.devRef .tc main_v13)) (Wv (Proc.devRef .tc main_cst_4)) := by
  after_results_simp
  rfl

theorem call_keeps_arg0 : StableHlo.after hostOps0_1 Wv (Proc.devRef .tc main_arg0) = Wv (Proc.devRef .tc main_arg0) := by after_results_simp
theorem call_keeps_v1 : StableHlo.after hostOps0_1 Wv (Proc.devRef .tc main_v1) = Wv (Proc.devRef .tc main_v1) := by after_results_simp
theorem call_keeps_v3 : StableHlo.after hostOps0_1 Wv (Proc.devRef .tc main_v3) = Wv (Proc.devRef .tc main_v3) := by after_results_simp

/-- The third stretch writes the neighbourhood mean from the features, the edge rows and the per-node scale it finds. -/
theorem third_mean :
    StableHlo.after hostOps0_2 Wv (Proc.devRef .tc main_v27)
      = Cert.Sage.meanOf (F := Ideal) (Wv (Proc.devRef .tc main_arg0)) (Wv (Proc.devRef .tc main_v1)) (Wv (Proc.devRef .tc main_v3)) (Wv (Proc.devRef .tc main_v14)) := by
  after_results_simp
  rfl

theorem third_keeps_v14 : StableHlo.after hostOps0_2 Wv (Proc.devRef .tc main_v14) = Wv (Proc.devRef .tc main_v14) := by after_results_simp

/-- The stretch between the launches writes the neighbourhood mean of the first launch's output it finds. -/
theorem between_mean :
    StableHlo.after hostOps1 Wv (Proc.devRef .tc main_v44)
      = Cert.Sage.meanOf (F := Ideal) (Wv (Proc.devRef .tc main_v31)) (Wv (Proc.devRef .tc main_v1)) (Wv (Proc.devRef .tc main_v3)) (Wv (Proc.devRef .tc main_v14)) := by
  after_results_simp
  rfl

theorem between_keeps_v31 : StableHlo.after hostOps1 Wv (Proc.devRef .tc main_v31) = Wv (Proc.devRef .tc main_v31) := by after_results_simp

theorem between_left : StableHlo.after hostOps1 Wv (Proc.devRef .tc main_v45) = Cert.Sage.turned (F := Ideal) (Wv (Proc.devRef .tc main_arg5)) := by
  after_results_simp
  rfl

theorem between_right : StableHlo.after hostOps1 Wv (Proc.devRef .tc main_v46) = Cert.Sage.turned (F := Ideal) (Wv (Proc.devRef .tc main_arg7)) := by
  after_results_simp
  rfl

theorem between_bias : StableHlo.after hostOps1 Wv (Proc.devRef .tc main_v47) = shapeCast S1x128 (Wv (Proc.devRef .tc main_arg6)) shapeCasts_S128_S1x128 := by
  after_results_simp
  rfl

end Stretches

variable (m : (ℓ : Loc nD τ sig) → Buf (Elt Ideal) ℓ) (ρ : Dev nD → PrngReg)

/-! ## After the first stretch -/

theorem first_arg0 (c : Dev nD) : W1 m ρ c (Proc.devRef .tc main_arg0) = (m ((c : Thread nD τ).loc main_arg0)) := by
  show StableHlo.after hostOps0 (W0 m ρ c) (Proc.devRef .tc main_arg0) = _
  after_results_simp

theorem first_src (c : Dev nD) : W1 m ρ c (Proc.devRef .tc main_v1) = Cert.Sage.srcRow (F := Ideal) (m ((c : Thread nD τ).loc main_arg1)) := by
  show StableHlo.after hostOps0 (W0 m ρ c) (Proc.devRef .tc main_v1) = _
  after_results_simp
  rfl

theorem first_dst (c : Dev nD) : W1 m ρ c (Proc.devRef .tc main_v3) = Cert.Sage.dstRow (F := Ideal) (m ((c : Thread nD τ).loc main_arg1)) := by
  show StableHlo.after hostOps0 (W0 m ρ c) (Proc.devRef .tc main_v3) = _
  after_results_simp
  rfl

theorem first_positive (c : Dev nD) : W1 m ρ c (Proc.devRef .tc main_v9) = Cert.Sage.degPositive (F := Ideal) (m ((c : Thread nD τ).loc main_arg1)) := by
  show StableHlo.after hostOps0 (W0 m ρ c) (Proc.devRef .tc main_v9) = _
  after_results_simp
  rfl

theorem first_recip (c : Dev nD) : W1 m ρ c (Proc.devRef .tc main_v13) = Cert.Sage.recipDegree (F := Ideal) (m ((c : Thread nD τ).loc main_arg1)) := by
  show StableHlo.after hostOps0 (W0 m ρ c) (Proc.devRef .tc main_v13) = _
  after_results_simp
  rfl

theorem first_zero (c : Dev nD) : W1 m ρ c (Proc.devRef .tc main_cst_4) = constant (F := Ideal) S_ .f32 0x00000000#32 := by
  show StableHlo.after hostOps0 (W0 m ρ c) (Proc.devRef .tc main_cst_4) = _
  after_results_simp

/-! ## After the called select -/

theorem second_inv (c : Dev nD) : W2 m ρ c (Proc.devRef .tc main_v14) = Cert.Sage.invDegree (F := Ideal) (m ((c : Thread nD τ).loc main_arg1)) := by
  refine (call_where (W1 m ρ c)).trans ?_
  rw [first_positive, first_recip, first_zero]
  rfl

theorem second_arg0 (c : Dev nD) : W2 m ρ c (Proc.devRef .tc main_arg0) = (m ((c : Thread nD τ).loc main_arg0)) :=
  (call_keeps_arg0 (W1 m ρ c)).trans (first_arg0 m ρ c)

theorem second_src (c : Dev nD) : W2 m ρ c (Proc.devRef .tc main_v1) = Cert.Sage.srcRow (F := Ideal) (m ((c : Thread nD τ).loc main_arg1)) :=
  (call_keeps_v1 (W1 m ρ c)).trans (first_src m ρ c)

theorem second_dst (c : Dev nD) : W2 m ρ c (Proc.devRef .tc main_v3) = Cert.Sage.dstRow (F := Ideal) (m ((c : Thread nD τ).loc main_arg1)) :=
  (call_keeps_v3 (W1 m ρ c)).trans (first_dst m ρ c)

/-! ## On entry to the first launch -/

/-- The aggregated operand is the neighbourhood mean of the node features. -/
theorem mean0 (c : Dev nD) : V3 m ρ c main_v27 = Cert.Sage.neighbourMean (F := Ideal) (m ((c : Thread nD τ).loc main_arg0)) (m ((c : Thread nD τ).loc main_arg1)) := by
  refine (third_mean (W2 m ρ c)).trans ?_
  rw [second_arg0, second_src, second_dst, second_inv]
  rfl

/-- The node-feature operand is the argument. -/
theorem self0 (c : Dev nD) : V3 m ρ c main_arg0 = (m ((c : Thread nD τ).loc main_arg0)) := by
  show StableHlo.after hostOps0_2 (StableHlo.after hostOps0_1 (StableHlo.after hostOps0 (W0 m ρ c))) (Proc.devRef .tc main_arg0) = _
  after_results_simp

/-- The first matrix operand is the first layer's neighbour weights turned over. -/
theorem left0 (c : Dev nD) : V3 m ρ c main_v28 = Cert.Sage.turned (F := Ideal) (m ((c : Thread nD τ).loc main_arg2)) := by
  show StableHlo.after hostOps0_2 (StableHlo.after hostOps0_1 (StableHlo.after hostOps0 (W0 m ρ c))) (Proc.devRef .tc main_v28) = _
  after_results_simp
  rfl

/-- The second matrix operand is the first layer's root weights turned over. -/
theorem right0 (c : Dev nD) : V3 m ρ c main_v29 = Cert.Sage.turned (F := Ideal) (m ((c : Thread nD τ).loc main_arg4)) := by
  show StableHlo.after hostOps0_2 (StableHlo.after hostOps0_1 (StableHlo.after hostOps0 (W0 m ρ c))) (Proc.devRef .tc main_v29) = _
  after_results_simp
  rfl

/-- The one-row operand is the first layer's bias laid out as a row. -/
theorem bias0 (c : Dev nD) : V3 m ρ c main_v30 = shapeCast S1x128 (m ((c : Thread nD τ).loc main_arg3)) shapeCasts_S128_S1x128 := by
  show StableHlo.after hostOps0_2 (StableHlo.after hostOps0_1 (StableHlo.after hostOps0 (W0 m ρ c))) (Proc.devRef .tc main_v30) = _
  after_results_simp
  rfl

/-! ## What the first launch leaves for the stretch between the launches -/

/-- The source rows survive the first launch. -/
theorem src4 (c : Dev nD) : W4 m ρ c (Proc.devRef .tc main_v1) = Cert.Sage.srcRow (F := Ideal) (m ((c : Thread nD τ).loc main_arg1)) := by
  refine (W4_of_ne m ρ c main_v1 (by decide)).trans ?_
  show StableHlo.after hostOps0_2 (StableHlo.after hostOps0_1 (StableHlo.after hostOps0 (W0 m ρ c))) (Proc.devRef .tc main_v1) = _
  after_results_simp
  rfl

/-- The destination rows survive the first launch. -/
theorem dst4 (c : Dev nD) : W4 m ρ c (Proc.devRef .tc main_v3) = Cert.Sage.dstRow (F := Ideal) (m ((c : Thread nD τ).loc main_arg1)) := by
  refine (W4_of_ne m ρ c main_v3 (by decide)).trans ?_
  show StableHlo.after hostOps0_2 (StableHlo.after hostOps0_1 (StableHlo.after hostOps0 (W0 m ρ c))) (Proc.devRef .tc main_v3) = _
  after_results_simp
  rfl

/-- The reciprocal in-degree survives the third stretch and the first launch. -/
theorem inv4 (c : Dev nD) : W4 m ρ c (Proc.devRef .tc main_v14) = Cert.Sage.invDegree (F := Ideal) (m ((c : Thread nD τ).loc main_arg1)) :=
  (W4_of_ne m ρ c main_v14 (by decide)).trans ((third_keeps_v14 (W2 m ρ c)).trans (second_inv m ρ c))

/-- The second layer's neighbour weights are still the argument. -/
theorem w2l4 (c : Dev nD) : W4 m ρ c (Proc.devRef .tc main_arg5) = (m ((c : Thread nD τ).loc main_arg5)) := by
  refine (W4_of_ne m ρ c main_arg5 (by decide)).trans ?_
  show StableHlo.after hostOps0_2 (StableHlo.after hostOps0_1 (StableHlo.after hostOps0 (W0 m ρ c))) (Proc.devRef .tc main_arg5) = _
  after_results_simp

/-- The second layer's root weights are still the argument. -/
theorem w2r4 (c : Dev nD) : W4 m ρ c (Proc.devRef .tc main_arg7) = (m ((c : Thread nD τ).loc main_arg7)) := by
  refine (W4_of_ne m ρ c main_arg7 (by decide)).trans ?_
  show StableHlo.after hostOps0_2 (StableHlo.after hostOps0_1 (StableHlo.after hostOps0 (W0 m ρ c))) (Proc.devRef .tc main_arg7) = _
  after_results_simp

/-- The second layer's bias is still the argument. -/
theorem b24 (c : Dev nD) : W4 m ρ c (Proc.devRef .tc main_arg6) = (m ((c : Thread nD τ).loc main_arg6)) := by
  refine (W4_of_ne m ρ c main_arg6 (by decide)).trans ?_
  show StableHlo.after hostOps0_2 (StableHlo.after hostOps0_1 (StableHlo.after hostOps0 (W0 m ρ c))) (Proc.devRef .tc main_arg6) = _
  after_results_simp

/-- The first launch's output array after its last write-back. -/
theorem hidden4 (c : Dev nD) : W4 m ρ c (Proc.devRef .tc main_v31) = (dat0 (V3 m ρ) c).arrAt 5 cfg0.N :=
  W4_arr m ρ c 5

/-! ## On entry to the second launch -/

/-- The aggregated operand is the neighbourhood mean of the first launch's output. -/
theorem mean1 (c : Dev nD) :
    V5 m ρ c main_v44 = Cert.Sage.neighbourMean (F := Ideal) (W4 m ρ c (Proc.devRef .tc main_v31)) (m ((c : Thread nD τ).loc main_arg1)) := by
  refine (between_mean (W4 m ρ c)).trans ?_
  rw [src4, dst4, inv4]
  rfl

/-- The feature operand is the first launch's output. -/
theorem self1 (c : Dev nD) : V5 m ρ c main_v31 = W4 m ρ c (Proc.devRef .tc main_v31) :=
  between_keeps_v31 (W4 m ρ c)

/-- The first matrix operand is the second layer's neighbour weights turned over. -/
theorem left1 (c : Dev nD) : V5 m ρ c main_v45 = Cert.Sage.turned (F := Ideal) (m ((c : Thread nD τ).loc main_arg5)) := by
  refine (between_left (W4 m ρ c)).trans ?_
  rw [w2l4]

/-- The second matrix operand is the second layer's root weights turned over. -/
theorem right1 (c : Dev nD) : V5 m ρ c main_v46 = Cert.Sage.turned (F := Ideal) (m ((c : Thread nD τ).loc main_arg7)) := by
  refine (between_right (W4 m ρ c)).trans ?_
  rw [w2r4]

/-- The one-row operand is the second layer's bias laid out as a row. -/
theorem bias1 (c : Dev nD) : V5 m ρ c main_v47 = shapeCast S1x128 (m ((c : Thread nD τ).loc main_arg6)) shapeCasts_S128_S1x128 := by
  refine (between_bias (W4 m ρ c)).trans ?_
  rw [b24]

end Cert.Sage.KHost

end
-- ==== Proof.Bridge.lean ====
/-
  One layer, two spellings, one value.

  The host spells a layer as two matrix products with the turned weight matrices, the bias repeated on every row, and two
  additions grouped (A * Wl^T + b) + X * Wr^T. Read at row r and output feature q this is
      sum_k A(r, k) * Wl^T(k, q)  +  b(q)  +  sum_k X(r, k) * Wr^T(k, q),
  which is the entry a launch's output array holds (KPay's layerAt) once the launch's one-row bias operand is known to be
  the bias. The same terms are added in the same grouping on both sides, so nothing is asked of the numbers: the equation
  holds at the infinities as well.
-/
import proofs.«169882_j26474178412606_1_alg».proof.Proof.Stages
import proofs.«169882_j26474178412606_1_alg».proof.Proof.KPay
import Idealize.ShloMosaic.Lib.KernelVsHost

noncomputable section

namespace Cert.Sage.Bridge

open Cert.ReferenceIdeal Cert.ReferenceIdeal.Gen Idealize.ShloMosaic Idealize.ShloMosaic.TcCoe Idealize.ShloMosaic.ValueIdx

/-- The host's product with a turned weight matrix, read at (r, q), is the row against the column. -/
theorem timesTurned_apply (X : Feat Ideal) (Wt : Weight Ideal) (r : Fin 100000) (q : Fin 128) :
    timesTurned X Wt (ix2 r q) = rowDot (M := 100000) X Wt r q := by
  unfold timesTurned rowDot
  exact PlainProduct.dotGeneral_apply (M := 100000) (K := 128) (P := 128)
    dot_S100000x128_S128x128_S100000x128_1_0_0_1_n_n_wf none X Wt r q

/-- The bias repeated on every row, read at (r, q), is the bias at q. -/
theorem biasRows_apply (b : Bias Ideal) (r : Fin 100000) (q : Fin 128) : biasRows b (ix2 r q) = b (ix1 q) := by
  unfold biasRows
  refine (broadcastInDim_oneRow_apply (m := 100000) (n := 128) bcast_S1x128_S100000x128_0_1 _ r q).trans ?_
  exact broadcastInDim_apply ![1] bcast_S128_S1x128_1 b (ix2 (0 : Fin 1) q) (ix1 q) (fun a => match a with
    | ⟨0, _⟩ => by show q.val = if (128 : Nat) = 1 then 0 else q.val; rw [if_neg (by decide)])

/-- max(., 0) read at an index. -/
theorem relu_apply (Y : Feat Ideal) (i : S100000x128.Idx) : relu Y i = max (Y i) (Ideal.ofBits .f32 0x00000000#32) := by
  unfold relu
  show max (Y i) (broadcastInDim S100000x128 ![] bcast_S_S100000x128 (constant (F := Ideal) S_ .f32 0x00000000#32) i) = _
  refine congrArg (max (Y i)) ?_
  exact (broadcastInDim_apply ![] bcast_S_S100000x128 (constant (F := Ideal) S_ .f32 0x00000000#32) i (fun a => a.elim0)
    (fun a => a.elim0)).trans rfl

/-- One layer read at (r, q). -/
theorem layer_apply (A X : Feat Ideal) (Wl : Weight Ideal) (b : Bias Ideal) (Wr : Weight Ideal) (r : Fin 100000) (q : Fin 128) :
    layer A X Wl b Wr (ix2 r q) = rowDot (M := 100000) A (turned Wl) r q + b (ix1 q) + rowDot (M := 100000) X (turned Wr) r q := by
  unfold layer
  show (timesTurned A (turned Wl) (ix2 r q) + biasRows b (ix2 r q)) + timesTurned X (turned Wr) (ix2 r q) = _
  rw [timesTurned_apply, timesTurned_apply, biasRows_apply]

/-- An array that holds, entry by entry, the rows against the turned matrices plus a one-row operand that is the bias, is
    the layer. -/
theorem layer_of_entries (A X : Feat Ideal) (Wl : Weight Ideal) (b : Bias Ideal) (Wr : Weight Ideal)
    (row : (⟨2, ![1, 128]⟩ : Shape).Idx → EReal) (hrow : ∀ q : Fin 128, row (ix2 (0 : Fin 1) q) = b (ix1 q)) :
    (fun i : S100000x128.Idx => layerAt (M := 100000) A X (turned Wl) (turned Wr) row (i 0) (i 1)) = layer A X Wl b Wr := by
  funext i
  obtain ⟨r, q, rfl⟩ : ∃ (r : Fin 100000) (q : Fin 128), i = ix2 r q := ⟨i 0, i 1, eq_ix2 i⟩
  rw [layer_apply]
  show layerAt (M := 100000) A X (turned Wl) (turned Wr) row r q = _
  unfold layerAt
  rw [hrow]

/-- The same with every entry capped below by zero. -/
theorem relu_layer_of_entries (A X : Feat Ideal) (Wl : Weight Ideal) (b : Bias Ideal) (Wr : Weight Ideal)
    (row : (⟨2, ![1, 128]⟩ : Shape).Idx → EReal) (hrow : ∀ q : Fin 128, row (ix2 (0 : Fin 1) q) = b (ix1 q)) :
    (fun i : S100000x128.Idx =>
        max (layerAt (M := 100000) A X (turned Wl) (turned Wr) row (i 0) (i 1)) (Ideal.ofBits .f32 0x00000000#32))
      = relu (layer A X Wl b Wr) := by
  funext i
  rw [relu_apply, ← layer_of_entries A X Wl b Wr row hrow]

end Cert.Sage.Bridge

end
-- ==== Proof.KValue.lean ====
/-
  The idealized kernel program's result, as a function of its arguments.

  The first launch's output array is the hidden features: its operands on entry are the neighbourhood mean of the node
  features, the node features, the first layer's two weight matrices turned over and its bias as one row, and twenty blocks
  of the capped layer tile the array. The second launch's operands are the neighbourhood mean of that array, the array, the
  second layer's turned matrices and its bias as one row; its output array, the program's result, is therefore the second
  layer of the hidden features: the encoder of the arguments.
-/
import proofs.«169882_j26474178412606_1_alg».proof.Proof.KRun
import proofs.«169882_j26474178412606_1_alg».proof.Proof.KBlocks0
import proofs.«169882_j26474178412606_1_alg».proof.Proof.KBlocks1
import proofs.«169882_j26474178412606_1_alg».proof.Proof.KHost
import proofs.«169882_j26474178412606_1_alg».proof.Proof.Bridge

set_option maxRecDepth 16384

noncomputable section

namespace Cert.Sage.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- A bias laid out as one row, read at (0, q), is the bias at q. -/
theorem row_apply (b : (⟨S128, .f32⟩ : BufTy).Contents (Elt Ideal)) (q : Fin 128) :
    shapeCast S1x128 b shapeCasts_S128_S1x128 (ix2 (0 : Fin 1) q) = b (ix1 q) :=
  shapeCast_apply b shapeCasts_S128_S1x128 (ix2 (0 : Fin 1) q) (ix1 q)
    (by rw [Shape.rowMajor_val_two, Shape.rowMajor_val_one]; show q.val = 0 * 128 + q.val; omega)

/-- The first launch's output array after its last write-back is the hidden features. -/
theorem hidden_eq (c : Dev nD) :
    (dat0 (V3 m ρ) c).arrAt 5 cfg0.N
      = Cert.Sage.hidden (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [Blocks0.final (V3 m ρ) c]
  unfold Blocks0.whole
  rw [KHost.mean0, KHost.self0, KHost.left0, KHost.right0, KHost.bias0]
  exact Bridge.relu_layer_of_entries _ _ _ _ _ _ (fun q => row_apply _ q)

/-- The result buffer's last contents are the encoder of the arguments. -/
theorem result_eq (c : Dev nD) :
    W6 m ρ c (Proc.devRef .tc main_v48) = Cert.Sage.encoder (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 5).trans ?_
  rw [Blocks1.final (V5 m ρ) c]
  unfold Blocks1.whole
  rw [KHost.mean1, KHost.self1, KHost.left1, KHost.right1, KHost.bias1, KHost.hidden4, hidden_eq]
  exact Bridge.layer_of_entries _ _ _ _ _ _ (fun q => row_apply _ q)

/-- Every weakly fair execution of the idealized kernel program terminates with its result the encoder of the arguments and
    the arguments as launched. -/
theorem run : θ_run defs (onTc (τ := τ) (main (F := Ideal))) ⟨m, fun _ => 0, ρ⟩ (fun r => ∀ c : Dev nD,
      r.2.mem ((c.tc : Thread nD τ).loc main_v48) = Cert.Sage.encoder (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (KRun.run_named m ρ)

end Cert.Sage.KValue

end
-- ==== Proof.lean ====
/-
  A two-layer neighbourhood-mean graph convolution over 100000 nodes and 1600000 edges: the kernel program computes each
  layer's dense part,  mean(H) * Wl^T + b + H * Wr^T  (capped below by zero after the first layer), in a launch over twenty
  blocks of 5000 rows, and leaves the gather, the scatter-add and the reciprocal in-degree to the host; the reference
  computes everything on the host.

  At the ideal values the two programs compute one function of the arguments, the encoder (Stages):
    * both list the same host operations for the edge rows, the reciprocal in-degree and the neighbourhood mean, and those
      stay closed on both sides;
    * one launch's output array, block by block, is the layer entry by entry (KBlocks0, KBlocks1 over KPay): the bf16
      narrowings are the identity, a product accumulated into zeros is the plain sum over the 128 input features, the
      row blocks line up and tile the array;
    * the host's layer read at an index is the same three terms in the same grouping (Bridge), so nothing is asked of the
      numbers and the precondition is never opened;
    * the second launch reads the first launch's output array, so the two layers compose as in the reference (KValue).
  The kernel's frames are the generated ones; the reference's frame is its run (RefRun) with the result dropped; the ideal
  pass rewrote nothing, so the idealization conjunct is trivial.
-/
import proofs.«169882_j26474178412606_1_alg».proof.Defs
import proofs.«169882_j26474178412606_1_alg».proof.Proof.Gen.Kernel
import proofs.«169882_j26474178412606_1_alg».proof.Proof.Gen.Kernel.Skeleton
import proofs.«169882_j26474178412606_1_alg».proof.Proof.Gen.Kernel.Launch
import proofs.«169882_j26474178412606_1_alg».proof.Proof.Gen.Kernel.Points
import proofs.«169882_j26474178412606_1_alg».proof.Proof.Gen.Kernel.Frame
import proofs.«169882_j26474178412606_1_alg».proof.Proof.Gen.KernelIdeal
import proofs.«169882_j26474178412606_1_alg».proof.Proof.Gen.KernelIdeal.Skeleton
import proofs.«169882_j26474178412606_1_alg».proof.Proof.Gen.KernelIdeal.Launch
import proofs.«169882_j26474178412606_1_alg».proof.Proof.Gen.KernelIdeal.Points
import proofs.«169882_j26474178412606_1_alg».proof.Proof.Gen.KernelIdeal.Frame
import proofs.«169882_j26474178412606_1_alg».proof.Proof.Gen.ReferenceIdeal
import proofs.«169882_j26474178412606_1_alg».proof.Proof.Gen.Pre_finite_inputs
import proofs.«169882_j26474178412606_1_alg».proof.Proof.RefRun
import proofs.«169882_j26474178412606_1_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Sage.RefRun.run (F := Ideal) m ρ)

/-- Both idealized programs end with the encoder of their arguments in the result array, and the arguments agree. -/
theorem algebraic : Cert.algebraic_KernelIdeal_ReferenceIdeal := by
  intro m ρ m' ρ' _ hagree
  refine ⟨fun c => Cert.Sage.encoder (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), Cert.Sage.KValue.run m ρ, ?_⟩
  refine (θ_run Cert.ReferenceIdeal.defs _ _).mono (fun _ h c => ⟨(h c).1.trans ?_, (h c).2⟩)
    (Cert.Sage.RefRun.run (F := Ideal) m' ρ')
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
